-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S200000x128 : Shape := ⟨2, ![200000, 128]⟩
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S16384 32) (main_arg1 : IVec S16384 32) (main_arg2 : FVec F S200000x128 .f32) (main_arg3 : FVec F S100000x128 .f32) (main_arg4 : FVec F S128x128 .f32) (main_arg5 : FVec F S128 .f32) (main_arg6 : IVec S2x600000 32) : IVec S_ 1 :=
  let main_v0 : FVec F S200000x128 .f32 := Host.absf main_arg2
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384 : Shape := ⟨1, ![16384]⟩
abbrev S200000x128 : Shape := ⟨2, ![200000, 128]⟩
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S300000x128 : Shape := ⟨2, ![300000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S10000x128 : Shape := ⟨2, ![10000, 128]⟩
abbrev S16384x1 : Shape := ⟨2, ![16384, 1]⟩
abbrev S16384x128 : Shape := ⟨2, ![16384, 128]⟩
abbrev S2048x128 : Shape := ⟨2, ![2048, 128]⟩
abbrev S2048x1 : Shape := ⟨2, ![2048, 1]⟩
abbrev S2048 : Shape := ⟨1, ![2048]⟩

abbrev nBuf : Space → Nat
  | .hbm => 49
  | .vmem => 12
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S200000x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S2x600000, .i32⟩
  | .hbm, ⟨7, _⟩ => ⟨S300000x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S300000x128, .f32⟩
  | .hbm, ⟨23, _⟩ => ⟨S600000x1, .i32⟩
  | .hbm, ⟨24, _⟩ => ⟨S300000x128, .f32⟩
  | .hbm, ⟨25, _⟩ => ⟨S128x128, .f32⟩
  | .hbm, ⟨26, _⟩ => ⟨S1x128, .f32⟩
  | .hbm, ⟨27, _⟩ => ⟨S300000x128, .f32⟩
  | .hbm, ⟨28, _⟩ => ⟨S200000x128, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x128, .f32⟩
  | .hbm, ⟨38, _⟩ => ⟨S100000x128, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S16384x128, .f32⟩
  | .hbm, ⟨48, _⟩ => ⟨S16384x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x1, .f32⟩
  | .local _ .vmem, ⟨11, _⟩ => ⟨S2048x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S200000x128_S100000x128_S300000x128_d0 : Shape.Concatenates [S200000x128, S100000x128] S300000x128 0
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S300000x128 : S_.BroadcastsInDim S300000x128 (![] : Fin 0 → Fin S300000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S300000x128_S200000x128_0_0 : S300000x128.Slices ![0, 0] S200000x128
  bcast_S_S16384 : S_.BroadcastsInDim S16384 (![] : Fin 0 → Fin S16384.rank)
  bcast_S16384_S16384x1_0 : S16384.BroadcastsInDim S16384x1 (![0] : Fin 1 → Fin S16384x1.rank)
  slices_S300000x128_S100000x128_200000_0 : S300000x128.Slices ![200000, 0] S100000x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  gather_S300000x128_S600000x1_S600000x128_1_0_n_n_0_1_1128_wf : GatherDims.WF S300000x128 S600000x1 S600000x128 [1] [0] [] [0] [] 1 ![1, 128]
  scatter_S300000x128_S600000x1_S600000x128_1_0_0_1_wf : ScatterDims.WF S300000x128 S600000x1 S600000x128 [1] [0] [0] 1
  dot_S10000x128_S128x128_S10000x128_1_0_0_1_n_n_wf : DotDims.WF S10000x128 S128x128 S10000x128 [1] [0] [0] [1] [] []
  gather_S200000x128_S16384x1_S16384x128_1_0_n_n_0_1_1128_wf : GatherDims.WF S200000x128 S16384x1 S16384x128 [1] [0] [] [0] [] 1 ![1, 128]
  gather_S100000x128_S16384x1_S16384x128_1_0_n_n_0_1_1128_wf : GatherDims.WF S100000x128 S16384x1 S16384x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S300000x128.size a
  hwx0_0 : ∀ i : grid0.Coords, EltTy.bits .f32 = 32 ∨ (Rect.block (s := S300000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S300000x128.size a
  hwx0_3 : ∀ i : grid0.Coords, EltTy.bits .f32 = 32 ∨ (Rect.block (s := S300000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)

variable [Facts₀]

def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S200000x128_S16384x1_S16384x128_1_0_n_n_0_1_1128 : GatherDims S200000x128 S16384x1 S16384x128 where
  offsetDims := [1]
  collapsedSliceDims := [0]
  operandBatchingDims := []
  startIndicesBatchingDims := []
  startIndexMap := [0]
  indexVectorDim := 1
  sliceSizes := ![1, 128]
  wf := gather_S200000x128_S16384x1_S16384x128_1_0_n_n_0_1_1128_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384 : Shape := ⟨1, ![16384]⟩
abbrev S200000x128 : Shape := ⟨2, ![200000, 128]⟩
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S300000x128 : Shape := ⟨2, ![300000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S16384x1 : Shape := ⟨2, ![16384, 1]⟩
abbrev S16384x128 : Shape := ⟨2, ![16384, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S200000x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S2x600000, .i32⟩
  | .hbm, ⟨7, _⟩ => ⟨S300000x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S300000x128, .f32⟩
  | .hbm, ⟨23, _⟩ => ⟨S600000x1, .i32⟩
  | .hbm, ⟨24, _⟩ => ⟨S300000x128, .f32⟩
  | .hbm, ⟨25, _⟩ => ⟨S128x128, .f32⟩
  | .hbm, ⟨26, _⟩ => ⟨S300000x128, .f32⟩
  | .hbm, ⟨27, _⟩ => ⟨S1x128, .f32⟩
  | .hbm, ⟨28, _⟩ => ⟨S300000x128, .f32⟩
  | .hbm, ⟨29, _⟩ => ⟨S300000x128, .f32⟩
  | .hbm, ⟨30, _⟩ => ⟨S200000x128, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x128, .f32⟩
  | .hbm, ⟨40, _⟩ => ⟨S100000x128, .f32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S16384x128, .f32⟩
  | .hbm, ⟨50, _⟩ => ⟨S16384x128, .f32⟩
  | .hbm, ⟨51, _⟩ => ⟨S_, .f32⟩
  | .hbm, ⟨52, _⟩ => ⟨S16384, .f32⟩
  | .hbm, ⟨53, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  concatenates_S200000x128_S100000x128_S300000x128_d0 : Shape.Concatenates [S200000x128, S100000x128] S300000x128 0
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S300000x128 : S_.BroadcastsInDim S300000x128 (![] : Fin 0 → Fin S300000x128.rank)
  transposes_S128x128_S128x128_1_0 : S128x128.Transposes [1, 0] S128x128
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  slices_S300000x128_S200000x128_0_0 : S300000x128.Slices ![0, 0] S200000x128
  bcast_S_S16384 : S_.BroadcastsInDim S16384 (![] : Fin 0 → Fin S16384.rank)
  bcast_S16384_S16384x1_0 : S16384.BroadcastsInDim S16384x1 (![0] : Fin 1 → Fin S16384x1.rank)
  slices_S300000x128_S100000x128_200000_0 : S300000x128.Slices ![200000, 0] S100000x128
  reducesTo_S16384x128_S16384_d1 : S16384x128.ReducesTo [1] S16384
  h_S_ : 0 < S_.numel
  gather_S300000x128_S600000x1_S600000x128_1_0_n_n_0_1_1128_wf : GatherDims.WF S300000x128 S600000x1 S600000x128 [1] [0] [] [0] [] 1 ![1, 128]
  scatter_S300000x128_S600000x1_S600000x128_1_0_0_1_wf : ScatterDims.WF S300000x128 S600000x1 S600000x128 [1] [0] [0] 1
  dot_S300000x128_S128x128_S300000x128_1_0_0_1_n_n_wf : DotDims.WF S300000x128 S128x128 S300000x128 [1] [0] [0] [1] [] []
  gather_S200000x128_S16384x1_S16384x128_1_0_n_n_0_1_1128_wf : GatherDims.WF S200000x128 S16384x1 S16384x128 [1] [0] [] [0] [] 1 ![1, 128]
  gather_S100000x128_S16384x1_S16384x128_1_0_n_n_0_1_1128_wf : GatherDims.WF S100000x128 S16384x1 S16384x128 [1] [0] [] [0] [] 1 ![1, 128]

variable [Facts₀]

def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def gather_S200000x128_S16384x1_S16384x128_1_0_n_n_0_1_1128 : GatherDims S200000x128 S16384x1 S16384x128 where
  offsetDims := [1]
  collapsedSliceDims := [0]
  operandBatchingDims := []
  startIndicesBatchingDims := []
  startIndexMap := [0]
  indexVectorDim := 1
  sliceSizes := ![1, 128]
  wf := gather_S200000x128_S16384x1_S16384x128_1_0_n_n_0_1_1128_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.KernelRun.lean ====
/-
  The idealized kernel's run, with its result named.

  The program is two stretches of host operations and two kernel regions in turn.  Its buffers at each boundary are a
  fold from the launch memory: after the first stretch, after the first region's write-backs, after the second stretch,
  after the second region's write-backs.  Every weakly fair execution terminates, and at the end every buffer that is
  not scoped to a region holds the last fold's contents; in particular the result buffer does, and the seven argument
  buffers hold what they were launched with.
-/
import proofs.«177760_j14113262535118_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every unscoped buffer of every core ends at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer and the seven arguments read out: the result holds the second region's output
    array as its write-backs leave it, the arguments what they were launched with. -/
theorem run_main : θ_run defs (onTc (τ := τ) (main (F := F))) ⟨m, fun _ => 0, ρ⟩ (fun r => ∀ c : Dev nD,
      r.2.mem ((c.tc : Thread nD τ).loc main_v34) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨(h c _ (mem_uc main_v34 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_all m ρ)

end Cert.KernelIdeal.Whole

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«177760_j14113262535118_1_alg».proof.Proof.LibMatmulPlain
import proofs.«177760_j14113262535118_1_alg».proof.Proof.LibDotsNT
import proofs.«177760_j14113262535118_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibRowDot.lean ====
/-
  The row-wise inner product of two arrays, kept as a column, read on the extended reals.

  For U, I : [a, k] the result is the column [a, 1] whose entry in row r is the sum over c of U(r, c) * I(r, c).
  A tile spells it as the pointwise product, a sum along the second axis from zero into an [a] vector, and a cast of that
  vector to a column; the host spells it as the pointwise product, a reduce-add along axis 1 from a zero scalar, and a
  broadcast_in_dim of the [a] vector along axis 0.  Both are the function `spec` below, and a block of consecutive rows
  of `spec` of two tall arrays is `spec` of their row blocks.  The same fact for a dense layer with a bias row
  (`Cert.Dense.biased`): a block of its rows only reads the same rows of the left operand.
-/
import Idealize.ShloMosaic.Lib.Pipeline.Value
import Idealize.ShloMosaic.Lib.ValueIdx
import Idealize.ShloMosaic.Lib.ValueLayout
import Idealize.ShloMosaic.PureOps.Ideal.Laws
import proofs.«177760_j14113262535118_1_alg».proof.Proof.LibKeepdims
import proofs.«177760_j14113262535118_1_alg».proof.Proof.LibDenseLayer

noncomputable section

open scoped BigOperators

namespace Cert.RowDot

open Idealize.ShloMosaic Idealize.ShloMosaic.ValueIdx

variable {a k : ℕ}

/-- Row r of the result: the sum over the columns of the products of the two entries of row r. -/
def spec (U I : (⟨2, ![a, k]⟩ : Shape).Idx → EReal) : (⟨2, ![a, 1]⟩ : Shape).Idx → EReal :=
  fun i => ∑ c : Fin k, U (ix2 (i 0) c) * I (ix2 (i 0) c)

theorem spec_ix2 (U I : (⟨2, ![a, k]⟩ : Shape).Idx → EReal) (r : Fin a) (u : Fin 1) :
    spec U I (ix2 r u) = ∑ c : Fin k, U (ix2 r c) * I (ix2 r c) := rfl

/-- The tile's spelling: each operand cast to its own shape, multiplied, summed along the second axis from the zero
    pattern, and the vector of sums cast to a column. -/
theorem tile_eq_spec (x0 x1 : FVec Ideal ⟨2, ![a, k]⟩ .f32)
    (hc : (⟨2, ![a, k]⟩ : Shape).ShapeCasts ⟨2, ![a, k]⟩)
    (h : (⟨2, ![a, k]⟩ : Shape).Reduces [1] (⟨1, ![a]⟩ : Shape)) (hφ : FKind.Formats .f32)
    (hacc : (0x00000000#32 : BitVec 32) = 0x00000000#32)
    (hcol : (⟨1, ![a]⟩ : Shape).ShapeCasts ⟨2, ![a, 1]⟩) :
    shapeCast ⟨2, ![a, 1]⟩ (multiReduction .add [1] (⟨1, ![a]⟩ : Shape)
        (mulf (shapeCast ⟨2, ![a, k]⟩ x0 hc) (shapeCast ⟨2, ![a, k]⟩ x1 hc)) 0x00000000#32 h hφ hacc) hcol
      = spec x0 x1 := by
  funext j
  obtain ⟨r, u, rfl⟩ : ∃ (r : Fin a) (u : Fin 1), j = ix2 r u := ⟨j 0, j 1, eq_ix2 j⟩
  rw [Cert.LibKeepdims.shapeCast_a_a1_apply, Cert.LibKeepdims.rowSum_apply, shapeCast_self, shapeCast_self]
  rfl

/-- The host's spelling: the product, a reduce-add along axis 1 from a scalar holding the zero pattern, and the
    vector of sums laid out as a column by broadcast_in_dim along axis 0. -/
theorem host_eq_spec (U I : FVec Ideal ⟨2, ![a, k]⟩ .f32)
    (hred : (⟨2, ![a, k]⟩ : Shape).ReducesTo [1] (⟨1, ![a]⟩ : Shape))
    (h : (⟨2, ![a, k]⟩ : Shape).Reduces [1] (⟨1, ![a]⟩ : Shape)) (hS : 0 < (⟨0, ![]⟩ : Shape).numel)
    (hb : (⟨1, ![a]⟩ : Shape).BroadcastsInDim ⟨2, ![a, 1]⟩ ![0]) :
    broadcastInDim ⟨2, ![a, 1]⟩ ![0] hb
        (Host.reduceAdd (F := Ideal) (mulf U I) (constant (F := Ideal) ⟨0, ![]⟩ .f32 0x00000000#32) hred hS)
      = spec U I := by
  funext j
  obtain ⟨r, u, rfl⟩ : ∃ (r : Fin a) (u : Fin 1), j = ix2 r u := ⟨j 0, j 1, eq_ix2 j⟩
  refine (broadcastInDim_apply ![0] hb _ (ix2 r u) (ix1 r) fun ax => ?_).trans ?_
  · match ax with
    | ⟨0, _⟩ =>
      show r.val = if a = 1 then 0 else r.val
      split
      · have := r.isLt; omega
      · rfl
  · simp only [Host.reduceAdd, Ideal.hostReduceAdd_def]
    rw [Ideal.hostReduceAdd_single hred h]
    show Ideal.ofBits .f32 0x00000000#32 + _ = _
    rw [Ideal.ofBits_zero_f32, zero_add]
    exact Finset.sum_congr rfl fun c _ => congrArg (mulf U I) (Cert.LibKeepdims.lift_cols h r c)

/-- Rows o .. o + a' - 1 of the result only read the same rows of the two operands. -/
theorem spec_rows {a' : ℕ} (U I : (⟨2, ![a, k]⟩ : Shape).Idx → EReal) (x0 x1 : (⟨2, ![a', k]⟩ : Shape).Idx → EReal)
    (y : (⟨2, ![a', 1]⟩ : Shape).Idx) (i : (⟨2, ![a, 1]⟩ : Shape).Idx)
    (h0 : ∀ c : Fin k, x0 (ix2 (y 0) c) = U (ix2 (i 0) c)) (h1 : ∀ c : Fin k, x1 (ix2 (y 0) c) = I (ix2 (i 0) c)) :
    spec x0 x1 y = spec U I i := by
  unfold spec
  exact Finset.sum_congr rfl fun c _ => by rw [h0 c, h1 c]

end Cert.RowDot

namespace Cert.Dense

open Idealize.ShloMosaic Idealize.ShloMosaic.ValueIdx

variable {a a' k n : ℕ}

/-- Rows of a dense layer with a bias row: the entry (y) of the layer over a block of rows of the left operand is the
    entry (i) of the layer over the whole operand, when the block's row y is the operand's row i and the two entries
    sit in the same column. -/
theorem biased_rows (A : (⟨2, ![a, k]⟩ : Shape).Idx → EReal) (x0 : (⟨2, ![a', k]⟩ : Shape).Idx → EReal)
    (W : (⟨2, ![k, n]⟩ : Shape).Idx → EReal) (B : (⟨2, ![1, n]⟩ : Shape).Idx → EReal)
    (y : (⟨2, ![a', n]⟩ : Shape).Idx) (i : (⟨2, ![a, n]⟩ : Shape).Idx)
    (h0 : ∀ c : Fin k, x0 (ix2 (y 0) c) = A (ix2 (i 0) c)) (h1 : (y 1 : Fin n) = (i 1 : Fin n)) :
    biased x0 W B y = biased A W B i := by
  unfold biased prod
  rw [h1]
  exact congrArg (· + _) (Finset.sum_congr rfl fun c _ => by rw [h0 c])

end Cert.Dense

end
-- ==== Proof.LinearRegion.lean ====
/-
  The first kernel region: a dense layer A W + b over a [300000, 128] array A, a [128, 128] matrix W and a [1, 128] row b.

  The grid has 30 points.  Point t loads rows 10000 t .. 10000 t + 9999 of A, all of W and all of b, stores the
  [10000, 128] block (block of A) W + b — the matrix unit's product of the two operands rounded to bfloat16, which on
  the extended reals is the product itself, plus the row spread over the block's rows — and that block is written back to
  rows 10000 t .. 10000 t + 9999 of the result.  Row r of a block's result only reads row r of the block of A, which is
  row 10000 t + r of A, so what point t writes back is block t of the layer over the WHOLE of A; the 30 blocks tile the
  300000 rows, so the result array ends holding that function of the three operands as the region found them.
-/
import proofs.«177760_j14113262535118_1_alg».proof.Proof.Gen.KernelIdeal.Frame
import Idealize.ShloMosaic.Lib.Pipeline.Value
import Idealize.ShloMosaic.Lib.ValueIdx
import proofs.«177760_j14113262535118_1_alg».proof.Proof.LibDenseLayer
import proofs.«177760_j14113262535118_1_alg».proof.Proof.LibRowDot

set_option maxRecDepth 16384

noncomputable section

namespace Cert.KernelIdeal.LinearRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The value the body stores is the dense layer of the three blocks it loaded. -/
theorem stored_eq (x0 : FVec Ideal S10000x128 .f32) (x1 : FVec Ideal S128x128 .f32) (x2 : FVec Ideal S1x128 .f32) :
    k0_pay1 (F := Ideal) x0 x1 x2 = Cert.Dense.biased x0 x1 x2 := by
  funext j
  obtain ⟨r, q, rfl⟩ : ∃ (r : Fin 10000) (q : Fin 128), j = ix2 r q := ⟨j 0, j 1, eq_ix2 j⟩
  unfold k0_pay1
  refine (Cert.Dense.tile_biased _ x2 _ _ r q).trans ?_
  refine congrArg (· + x2 (ix2 (0 : Fin 1) q)) ?_
  rw [shapeCast_self, shapeCast_self]
  exact congrFun (Cert.Dense.matmul_eq_prod dot_S10000x128_S128x128_S10000x128_1_0_0_1_n_n rfl rfl rfl rfl rfl rfl x0 x1 _) (ix2 r q)

/-- The printed index maps over the 30 grid points: the left operand and the result sit at row block t, the matrix and
    the bias row at their one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The matrix's window is the whole matrix at every point. -/
theorem matrix_block (c : Dev nD) (t : Fin cfg0.N) : iblk0 V c 1 t = V c main_v15 := by
  obtain ⟨e0, e1, e2, e3, e4, e5, e6, e7⟩ := index_facts t
  funext y
  show V c main_v15 (((cfg0.win 1).blk t).view.emb y) = V c main_v15 y
  refine congrArg _ (funext fun a => Fin.ext ?_)
  match a with
  | ⟨0, _⟩ =>
    show win0_1.index t (0 : Fin 2) * 128 + 1 * (y 0).val = (y 0).val
    omega
  | ⟨1, _⟩ =>
    show win0_1.index t (1 : Fin 2) * 128 + 1 * (y 1).val = (y 1).val
    omega

/-- The bias row's window is the whole row at every point. -/
theorem bias_block (c : Dev nD) (t : Fin cfg0.N) : iblk0 V c 2 t = V c main_v16 := by
  obtain ⟨e0, e1, e2, e3, e4, e5, e6, e7⟩ := index_facts t
  funext y
  show V c main_v16 (((cfg0.win 2).blk t).view.emb y) = V c main_v16 y
  refine congrArg _ (funext fun a => Fin.ext ?_)
  match a with
  | ⟨0, _⟩ =>
    show win0_2.index t (0 : Fin 2) * 1 + 1 * (y 0).val = (y 0).val
    omega
  | ⟨1, _⟩ =>
    show win0_2.index t (1 : Fin 2) * 128 + 1 * (y 1).val = (y 1).val
    omega

/-- What point t writes back is block t of the dense layer over the whole left operand. -/
theorem flushed_eq (c : Dev nD) (t : Fin cfg0.N) :
    (dat0 V c).flushed 3 t
      = ((cfg0.win 3).blk t).view.read (Elt Ideal) (Cert.Dense.biased (V c main_v14) (V c main_v15) (V c main_v16)) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x128) origin,
    View.ld_unit_zero (S := S1x128) origin]
  rw [stored_eq, matrix_block, bias_block]
  obtain ⟨e0, e1, e2, e3, e4, e5, e6, e7⟩ := index_facts t
  funext j
  show Cert.Dense.biased (iblk0 V c 0 t) (V c main_v15) (V c main_v16) j
    = Cert.Dense.biased (V c main_v14) (V c main_v15) (V c main_v16) (((cfg0.win 3).blk t).view.emb j)
  refine Cert.Dense.biased_rows _ _ _ _ j _ (fun cc => ?_) (Fin.ext ?_)
  · show V c main_v14 (((cfg0.win 0).blk t).view.emb (ix2 (j 0) cc))
      = V c main_v14 (ix2 ((((cfg0.win 3).blk t).view.emb j) 0) cc)
    refine congrArg _ (funext fun a => Fin.ext ?_)
    match a with
    | ⟨0, _⟩ =>
      show win0_0.index t (0 : Fin 2) * 10000 + 1 * (j 0).val = win0_3.index t (0 : Fin 2) * 10000 + 1 * (j 0).val
      omega
    | ⟨1, _⟩ =>
      show win0_0.index t (1 : Fin 2) * 128 + 1 * cc.val = cc.val
      omega
  · show (j 1).val = win0_3.index t (1 : Fin 2) * 128 + 1 * (j 1).val
    omega

/-- An index of the result is in point t's block iff each coordinate is in the block's range on its axis. -/
theorem mem_block (t : Fin cfg0.N) (i : S300000x128.Idx) :
    i ∈ ((cfg0.win 3).blk t).view.set
      ↔ ∀ a : Fin 2, win0_3.index t a * S10000x128.size a ≤ (i a).val ∧ (i a).val < win0_3.index t a * S10000x128.size a + S10000x128.size a := by
  show i ∈ ((View.whole main_v17).slice (win0_3.rect t)).set ↔ _
  rw [View.set_slice_whole, Rect.mem_set_unit]
  exact Iff.rfl

/-- Row r of the result lies in the block of point r / 10000. -/
theorem covered (i : S300000x128.Idx) :
    ∃ t : Fin cfg0.N, (cfg0.win 3).flush t = true ∧ i ∈ ((cfg0.win 3).blk t).view.set := by
  have hi0 : (i 0).val < 300000 := (i 0).isLt
  have hi1 : (i 1).val < 128 := (i 1).isLt
  have hN : cfg0.N = 30 := N_0
  let t : Fin cfg0.N := ⟨(i 0).val / 10000, by rw [hN]; omega⟩
  obtain ⟨e0, e1, e2, e3, e4, e5, e6, e7⟩ := index_facts t
  have ht : t.val = (i 0).val / 10000 := rfl
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The result array after the region: the dense layer of the three operand arrays as the region found them. -/
theorem final (c : Dev nD) :
    (dat0 V c).arrAt 3 cfg0.N = Cert.Dense.biased (V c main_v14) (V c main_v15) (V c main_v16) :=
  (dat0 V c).arrAt_eq_of_cover 3 (Cert.Dense.biased (V c main_v14) (V c main_v15) (V c main_v16))
    (fun t _ => flushed_eq V c t) covered

end Cert.KernelIdeal.LinearRegion

end
-- ==== Proof.RowDotRegion.lean ====
/-
  The second kernel region: the row-wise inner product of two [16384, 128] arrays, kept as a [16384, 1] column.

  The grid has 8 points.  Point t loads rows 2048 t .. 2048 t + 2047 of each operand, stores the column of the 2048
  row-wise inner products of the two blocks, and that column is written back to rows 2048 t .. 2048 t + 2047 of the
  result.  Row r of a block's result only reads row r of the two blocks, which is row 2048 t + r of the operands, so
  what point t writes back is block t of the row-wise inner product of the WHOLE operands; the 8 blocks tile the
  16384 rows, so the result array ends holding that function of the operands as the region found them.
-/
import proofs.«177760_j14113262535118_1_alg».proof.Proof.Gen.KernelIdeal.Frame
import Idealize.ShloMosaic.Lib.Pipeline.Value
import Idealize.ShloMosaic.Lib.ValueIdx
import proofs.«177760_j14113262535118_1_alg».proof.Proof.LibRowDot

set_option maxRecDepth 16384

noncomputable section

namespace Cert.KernelIdeal.RowDotRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The value the body stores is the row-wise inner product of the two blocks it loaded. -/
theorem stored_eq (x0 x1 : FVec Ideal S2048x128 .f32) : k1_pay1 (F := Ideal) x0 x1 = Cert.RowDot.spec x0 x1 := by
  unfold k1_pay1
  exact Cert.RowDot.tile_eq_spec x0 x1 _ _ _ _ _

/-- The printed index maps over the 8 grid points: all three windows sit at row block t, column block 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the row-wise inner product of the whole operands. -/
theorem flushed_eq (c : Dev nD) (t : Fin cfg1.N) :
    (dat1 V c).flushed 2 t
      = ((cfg1.win 2).blk t).view.read (Elt Ideal) (Cert.RowDot.spec (V c main_v25) (V c main_v33)) := by
  show (cfg1.win 2).cut (grid1.coords t) ((dat1 V c).after 2 t) = _
  rw [after1_2]
  unfold out1_2
  rw [View.canon_unit_zero origin]
  simp only [View.ld_unit_zero (S := S2048x128) origin]
  rw [stored_eq]
  obtain ⟨e0, e1, e2, e3, e4, e5⟩ := index_facts t
  funext j
  show Cert.RowDot.spec (iblk1 V c 0 t) (iblk1 V c 1 t) j
    = Cert.RowDot.spec (V c main_v25) (V c main_v33) (((cfg1.win 2).blk t).view.emb j)
  refine Cert.RowDot.spec_rows _ _ _ _ j _ (fun cc => ?_) (fun cc => ?_)
  · show V c main_v25 (((cfg1.win 0).blk t).view.emb (ix2 (j 0) cc))
      = V c main_v25 (ix2 ((((cfg1.win 2).blk t).view.emb j) 0) cc)
    refine congrArg _ (funext fun a => Fin.ext ?_)
    match a with
    | ⟨0, _⟩ =>
      show win1_0.index t (0 : Fin 2) * 2048 + 1 * (j 0).val = win1_2.index t (0 : Fin 2) * 2048 + 1 * (j 0).val
      omega
    | ⟨1, _⟩ =>
      show win1_0.index t (1 : Fin 2) * 128 + 1 * cc.val = cc.val
      omega
  · show V c main_v33 (((cfg1.win 1).blk t).view.emb (ix2 (j 0) cc))
      = V c main_v33 (ix2 ((((cfg1.win 2).blk t).view.emb j) 0) cc)
    refine congrArg _ (funext fun a => Fin.ext ?_)
    match a with
    | ⟨0, _⟩ =>
      show win1_1.index t (0 : Fin 2) * 2048 + 1 * (j 0).val = win1_2.index t (0 : Fin 2) * 2048 + 1 * (j 0).val
      omega
    | ⟨1, _⟩ =>
      show win1_1.index t (1 : Fin 2) * 128 + 1 * cc.val = cc.val
      omega

/-- An index of the result is in point t's block iff each coordinate is in the block's range on its axis. -/
theorem mem_block (t : Fin cfg1.N) (i : S16384x1.Idx) :
    i ∈ ((cfg1.win 2).blk t).view.set
      ↔ ∀ a : Fin 2, win1_2.index t a * S2048x1.size a ≤ (i a).val ∧ (i a).val < win1_2.index t a * S2048x1.size a + S2048x1.size a := by
  show i ∈ ((View.whole main_v34).slice (win1_2.rect t)).set ↔ _
  rw [View.set_slice_whole, Rect.mem_set_unit]
  exact Iff.rfl

/-- Row r of the result lies in the block of point r / 2048. -/
theorem covered (i : S16384x1.Idx) :
    ∃ t : Fin cfg1.N, (cfg1.win 2).flush t = true ∧ i ∈ ((cfg1.win 2).blk t).view.set := by
  have hi0 : (i 0).val < 16384 := (i 0).isLt
  have hi1 : (i 1).val < 1 := (i 1).isLt
  have hN : cfg1.N = 8 := N_1
  let t : Fin cfg1.N := ⟨(i 0).val / 2048, by rw [hN]; omega⟩
  obtain ⟨e0, e1, e2, e3, e4, e5⟩ := index_facts t
  have ht : t.val = (i 0).val / 2048 := rfl
  refine ⟨t, flush1_2 t, ?_⟩
  rw [mem_block]
  intro a
  match a with
  | ⟨0, _⟩ =>
    show win1_2.index t (0 : Fin 2) * 2048 ≤ (i 0).val ∧ (i 0).val < win1_2.index t (0 : Fin 2) * 2048 + 2048
    omega
  | ⟨1, _⟩ =>
    show win1_2.index t (1 : Fin 2) * 1 ≤ (i 1).val ∧ (i 1).val < win1_2.index t (1 : Fin 2) * 1 + 1
    omega

/-- The result array after the region: the row-wise inner product of the two operand arrays as the region found them. -/
theorem final (c : Dev nD) :
    (dat1 V c).arrAt 2 cfg1.N = Cert.RowDot.spec (V c main_v25) (V c main_v33) :=
  (dat1 V c).arrAt_eq_of_cover 2 (Cert.RowDot.spec (V c main_v25) (V c main_v33)) (fun t _ => flushed_eq V c t) covered

end Cert.KernelIdeal.RowDotRegion

end
-- ==== Proof.Stages.lean ====
/-
  The reference program read as the same three steps the kernel takes.

  Both programs first build the aggregated node array agg (concatenate, gather by source, scatter-add by destination),
  then the layer prop = agg Wᵀ + b, then gather the rows user_indices of the first 200000 rows of prop and the rows
  item_indices of its last 100000 rows, and return the row-wise inner products of the two gathered arrays as a column.
  Here the reference's stages are regrouped that way: prop is the dense layer (`Cert.Dense.biased`) of agg, Wᵀ and the
  bias laid out as a row; the two gathers are functions `userRows`, `itemRows` of prop and an index vector; and the
  result is the row-wise inner product (`Cert.RowDot.spec`) of the two gathered arrays.  The gathers and the
  aggregation are never opened.
-/
import proofs.«177760_j14113262535118_1_alg».proof.Proof.Gen.ReferenceIdeal.Read
import proofs.«177760_j14113262535118_1_alg».proof.Proof.LibDenseLayer
import proofs.«177760_j14113262535118_1_alg».proof.Proof.LibRowDot

noncomputable section

namespace Cert.Stages

open Cert.ReferenceIdeal Cert.ReferenceIdeal.Gen Cert.ReferenceIdeal.Read Idealize.ShloMosaic

/-- The rows of the first 200000 rows of P that the index vector a0 names (a negative index counted from the end). -/
def userRows (P : (⟨S300000x128, .f32⟩ : BufTy).Contents (Elt Ideal)) (a0 : (⟨S16384, .i32⟩ : BufTy).Contents (Elt Ideal)) :
    (⟨S16384x128, .f32⟩ : BufTy).Contents (Elt Ideal) :=
  Host.gather gather_S200000x128_S16384x1_S16384x128_1_0_n_n_0_1_1128
    (extractStridedSlice S200000x128 ![0, 0] P slices_S300000x128_S200000x128_0_0) (val_main_v26 (F := Ideal) a0)

/-- The rows of the last 100000 rows of P that the index vector a1 names. -/
def itemRows (P : (⟨S300000x128, .f32⟩ : BufTy).Contents (Elt Ideal)) (a1 : (⟨S16384, .i32⟩ : BufTy).Contents (Elt Ideal)) :
    (⟨S16384x128, .f32⟩ : BufTy).Contents (Elt Ideal) :=
  Host.gather gather_S100000x128_S16384x1_S16384x128_1_0_n_n_0_1_1128
    (extractStridedSlice S100000x128 ![200000, 0] P slices_S300000x128_S100000x128_200000_0) (val_main_v34 (F := Ideal) a1)

variable (x0 x1 : (⟨S16384, .i32⟩ : BufTy).Contents (Elt Ideal)) (x2 : (⟨S200000x128, .f32⟩ : BufTy).Contents (Elt Ideal))
  (x3 : (⟨S100000x128, .f32⟩ : BufTy).Contents (Elt Ideal)) (x4 : (⟨S128x128, .f32⟩ : BufTy).Contents (Elt Ideal))
  (x5 : (⟨S128, .f32⟩ : BufTy).Contents (Elt Ideal)) (x6 : (⟨S2x600000, .i32⟩ : BufTy).Contents (Elt Ideal))

/-- The layer the reference computes: agg Wᵀ + b, the host's dot_general plus the bias row laid over the rows. -/
def layer : (⟨S300000x128, .f32⟩ : BufTy).Contents (Elt Ideal) :=
  Cert.Dense.biased (val_main_v14 (F := Ideal) x2 x3 x6) (val_main_v15 (F := Ideal) x4) (val_main_v17 (F := Ideal) x5)

theorem ref_layer : val_main_v19 (F := Ideal) x2 x3 x4 x5 x6 = layer x2 x3 x4 x5 x6 := by
  unfold val_main_v19 val_main_v16 val_main_v18 layer
  exact (Cert.Dense.biased_eq_host dot_S300000x128_S128x128_S300000x128_1_0_0_1_n_n rfl rfl rfl rfl rfl rfl _ _ _ _).symm

/-- The reference's result: the row-wise inner products of the gathered rows of the layer. -/
theorem ref_result : val_main_v38 (F := Ideal) x0 x1 x2 x3 x4 x5 x6
    = Cert.RowDot.spec (userRows (layer x2 x3 x4 x5 x6) x0) (itemRows (layer x2 x3 x4 x5 x6) x1) := by
  unfold val_main_v38 val_main_v37 val_main_v36 val_main_v27 val_main_v35 val_main_v20 val_main_v28 val_main_cst_5
  rw [ref_layer]
  exact Cert.RowDot.host_eq_spec _ _ _ (by decide) _ _

end Cert.Stages

end
-- ==== Proof.KernelValue.lean ====
/-
  The idealized kernel's result as a function of its arguments.

  Reading the boundary contents one segment at a time: the first stretch of host operations leaves the aggregated node
  array, the transposed weight matrix and the bias laid out as a row, the same terms the reference computes; the first
  region leaves the dense layer of those three; the second stretch gathers the user rows and the item rows of that
  layer, by the same operations as the reference; the second region leaves the row-wise inner products of the two
  gathered arrays.  So the kernel's result is the reference's, term for term.
-/
import proofs.«177760_j14113262535118_1_alg».proof.Proof.KernelRun
import proofs.«177760_j14113262535118_1_alg».proof.Proof.LinearRegion
import proofs.«177760_j14113262535118_1_alg».proof.Proof.RowDotRegion
import proofs.«177760_j14113262535118_1_alg».proof.Proof.Stages
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first stretch of host operations -/

/-- The aggregated node array the first region is entered with is the reference's. -/
theorem agg_eq (c : Dev nD) :
    V1 m ρ c main_v14 = Cert.ReferenceIdeal.Read.val_main_v14 (F := Ideal) (m ((c.tc : Thread nD τ).loc main_arg2))
      (m ((c.tc : Thread nD τ).loc main_arg3)) (m ((c.tc : Thread nD τ).loc main_arg6)) := by
  show StableHlo.after hostOps0 (W0 m ρ c) (Proc.devRef .tc main_v14) = _
  after_results
  rfl

/-- The transposed weight matrix is the reference's. -/
theorem weights_eq (c : Dev nD) :
    V1 m ρ c main_v15 = Cert.ReferenceIdeal.Read.val_main_v15 (F := Ideal) (m ((c.tc : Thread nD τ).loc main_arg4)) := by
  show StableHlo.after hostOps0 (W0 m ρ c) (Proc.devRef .tc main_v15) = _
  after_results
  rfl

/-- The bias laid out as a row by a reshape is the reference's, laid out by a broadcast_in_dim along axis 1. -/
theorem bias_eq (c : Dev nD) :
    V1 m ρ c main_v16 = Cert.ReferenceIdeal.Read.val_main_v17 (F := Ideal) (m ((c.tc : Thread nD τ).loc main_arg5)) := by
  show StableHlo.after hostOps0 (W0 m ρ c) (Proc.devRef .tc main_v16) = _
  after_results
  exact Cert.Dense.row_cast_eq_bcast _ _ _

/-- The index vectors reach the second stretch as launched: neither the first stretch nor the first region writes them. -/
theorem users_idx_kept (c : Dev nD) : W2 m ρ c (Proc.devRef .tc main_arg0) = m ((c.tc : Thread nD τ).loc main_arg0) :=
  (W2_of_ne m ρ c main_arg0 (by decide)).trans (by
    show StableHlo.after hostOps0 (W0 m ρ c) (Proc.devRef .tc main_arg0) = _
    after_results)

theorem items_idx_kept (c : Dev nD) : W2 m ρ c (Proc.devRef .tc main_arg1) = m ((c.tc : Thread nD τ).loc main_arg1) :=
  (W2_of_ne m ρ c main_arg1 (by decide)).trans (by
    show StableHlo.after hostOps0 (W0 m ρ c) (Proc.devRef .tc main_arg1) = _
    after_results)

/-! ## The first region -/

/-- The layer array the first region leaves is the reference's layer. -/
theorem layer_eq (c : Dev nD) :
    W2 m ρ c (Proc.devRef .tc main_v17) = Cert.Stages.layer (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  refine (W2_arr m ρ c 3).trans ((Cert.KernelIdeal.LinearRegion.final (V1 m ρ) c).trans ?_)
  rw [agg_eq, weights_eq, bias_eq]
  rfl

/-! ## The second stretch of host operations -/

/-- The first operand of the second region: the user rows of the layer. -/
theorem users_eq (c : Dev nD) :
    V3 m ρ c main_v25 = Cert.Stages.userRows (W2 m ρ c (Proc.devRef .tc main_v17)) (m ((c.tc : Thread nD τ).loc main_arg0)) := by
  show StableHlo.after hostOps1 (W2 m ρ c) (Proc.devRef .tc main_v25) = _
  after_results_simp
  rw [users_idx_kept]
  rfl

/-- The second operand of the second region: the item rows of the layer. -/
theorem items_eq (c : Dev nD) :
    V3 m ρ c main_v33 = Cert.Stages.itemRows (W2 m ρ c (Proc.devRef .tc main_v17)) (m ((c.tc : Thread nD τ).loc main_arg1)) := by
  show StableHlo.after hostOps1 (W2 m ρ c) (Proc.devRef .tc main_v33) = _
  after_results_simp
  rw [items_idx_kept]
  rfl

/-! ## The second region, and the whole -/

/-- The kernel's result array is the reference's result, as functions of the seven arguments. -/
theorem result_eq (c : Dev nD) :
    (dat1 (V3 m ρ) c).arrAt 2 cfg1.N = Cert.ReferenceIdeal.Read.val_main_v38 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (Cert.KernelIdeal.RowDotRegion.final (V3 m ρ) c).trans ?_
  rw [users_eq, items_eq, layer_eq]
  exact (Cert.Stages.ref_result _ _ _ _ _ _ _).symm

end Cert.KernelIdeal.Whole

end
-- ==== Proof.lean ====
/-
  A two-layer scoring kernel against its jnp reference, on the extended reals.

  Both programs aggregate neighbour features over a graph (concatenate the two embedding tables, gather the source rows
  of 600000 edges, scatter-add them at the destination rows into a [300000, 128] array agg), apply one linear layer
  prop = agg Wᵀ + b, gather the rows user_indices of the first 200000 rows of prop and the rows item_indices of its last
  100000 rows, and return the [16384, 1] column of row-wise inner products of the two gathered arrays.

  The kernel runs the layer and the inner products as two tiled kernel regions, the rest as host operations; the
  reference runs everything as host operations.  The aggregation and the gathers are the same operations in both programs
  and are never opened.  The layer's region computes, 10000 rows at a time, the matrix unit's product of operands rounded
  to bfloat16 — the identity on extended reals — plus the bias row: block by block the dense layer of the whole array
  (LinearRegion).  The inner products' region multiplies and sums along the rows 2048 rows at a time: block by block the
  row-wise inner product of the whole arrays (RowDotRegion).  The reference's dot_general plus broadcast bias is the same
  dense layer, and its reduce-add of the product laid out as a column the same inner product (Stages).  No step moves a
  factor across a sum or cancels, so no finiteness of the inputs is used.
-/
import proofs.«177760_j14113262535118_1_alg».proof.Defs
import proofs.«177760_j14113262535118_1_alg».proof.Proof.Gen.Kernel
import proofs.«177760_j14113262535118_1_alg».proof.Proof.Gen.Kernel.Skeleton
import proofs.«177760_j14113262535118_1_alg».proof.Proof.Gen.Kernel.Launch
import proofs.«177760_j14113262535118_1_alg».proof.Proof.Gen.Kernel.Points
import proofs.«177760_j14113262535118_1_alg».proof.Proof.Gen.Kernel.Frame
import proofs.«177760_j14113262535118_1_alg».proof.Proof.Gen.KernelIdeal
import proofs.«177760_j14113262535118_1_alg».proof.Proof.Gen.KernelIdeal.Skeleton
import proofs.«177760_j14113262535118_1_alg».proof.Proof.Gen.KernelIdeal.Launch
import proofs.«177760_j14113262535118_1_alg».proof.Proof.Gen.KernelIdeal.Points
import proofs.«177760_j14113262535118_1_alg».proof.Proof.Gen.KernelIdeal.Frame
import proofs.«177760_j14113262535118_1_alg».proof.Proof.Gen.ReferenceIdeal
import proofs.«177760_j14113262535118_1_alg».proof.Proof.Gen.Pre_finite_inputs
import proofs.«177760_j14113262535118_1_alg».proof.Proof.Gen.ReferenceIdeal.Run
import proofs.«177760_j14113262535118_1_alg».proof.Proof.Gen.ReferenceIdeal.Read
import proofs.«177760_j14113262535118_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end, the kernel's result array at the row-wise inner
    products its second region leaves and the reference's at its last stage: the same function of the arguments. -/
theorem algebraic : Cert.algebraic_KernelIdeal_ReferenceIdeal := by
  intro m ρ m' ρ' _ hagree
  refine ⟨fun c => (Cert.KernelIdeal.Gen.dat1 (Cert.KernelIdeal.Gen.V3 m ρ) c).arrAt 2 Cert.KernelIdeal.cfg1.N,
    Cert.KernelIdeal.Whole.run_main m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq m' c).trans ?_
  refine Eq.trans ?_ (Cert.KernelIdeal.Whole.result_eq m ρ c).symm
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
